-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S256x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩

abbrev nBuf : Space → Nat
  | .hbm => 53
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S1600000x1, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x128, .f32⟩
  | .local _ .vmem, ⟨5, _⟩ => ⟨S256x128, .f32⟩
  | .local _ .vmem, ⟨6, _⟩ => ⟨S4000x128, .bf16⟩
  | .local _ .vmem, ⟨7, _⟩ => ⟨S4000x128, .bf16⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S256x128_S256x128_0_0 : ∀ a, (![0, 0] : Fin 2 → Nat) a + S256x128.size a ≤ S256x128.size a
  h_S256x128 : 0 < S256x128.numel
  natLt_1_32 : 1 < 32
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x256, .f32⟩
  | .hbm, ⟨22, _⟩ => ⟨S100000x256, .f32⟩
  | .hbm, ⟨23, _⟩ => ⟨S_, .f32⟩
  | .hbm, ⟨24, _⟩ => ⟨S256x128, .f32⟩
  | .hbm, ⟨25, _⟩ => ⟨S256x128, .i1⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S256x128 : S_.BroadcastsInDim S256x128 (![] : Fin 0 → Fin S256x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named.

  @main is eight segments: five stretches of host operations (the two degree counts, their clamps at one, the two
  powers), the projection region, one more stretch (the gather along the edges, the scaling by the edge weights, the
  scatter-add into the destination rows), and the finalizing region.  Running them from the launch memory leaves every
  buffer at the contents obtained by folding the segments one after the other; here the run is stated with the result
  buffer read at the end of that fold, beside the seven argument arrays, which end as launched.
-/
import proofs.«105192_j89515708383727_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the fold of
    the eight segments leaves in it, and the argument arrays are as launched. -/
theorem run_result : θ_run defs (onTc (τ := τ) (main (F := F))) ⟨m, fun _ => 0, ρ⟩ (fun r => ∀ c : Dev nD,
      r.2.mem ((c.tc : Thread nD τ).loc main_v31) = W8 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v31 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

/-- The result buffer at the end of the fold is the finalizing region's output array after its last grid point. -/
theorem result_eq_arrAt (c : Dev nD) :
    W8 m ρ c (Proc.devRef .tc main_v31) = (dat1 (V7 m ρ) c).arrAt 3 cfg1.N :=
  W8_arr m ρ c 3

end Cert.KernelIdeal.KRun

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.ProjectRegion.lean ====
/-
  The projection region: source-normalized features times the binarized-mask-weighted weights.

  The region walks the 100000 rows in 25 blocks of 4000.  At block t it reads rows 4000·t … 4000·t+3999 of the
  features [100000, 256] and of the source-degree norm column [100000, 1], and the whole weight and mask matrices
  [256, 128]; it writes rows 4000·t … 4000·t+3999 of the projected features [100000, 128], entry (p, o) being

      Σ_k  (feat(p, k) · norm(p)) · (𝟙[mask(k, o) > 1/2] · weight(k, o)),

  a matrix product into a zero accumulator (the roundings to bfloat16 before and after it are the identity on the
  extended reals).  The 25 blocks tile the output, so after the last block the output array is that sum at every index.
-/
import proofs.«105192_j89515708383727_2_alg».proof.Proof.Gen.KernelIdeal.Frame
import proofs.«105192_j89515708383727_2_alg».proof.Proof.LibColumnLayout
import proofs.«105192_j89515708383727_2_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

/-- The indicator of  x > 1/2  as the kernel forms it: the comparison's one bit, widened with zeros to 32 bits and read
    as a signed integer, so 0 or 1. -/
def indicator (x : Elt Ideal .f32) : Elt Ideal .f32 :=
  FloatOps.sitofp (F := Ideal) .f32
    ((FloatOps.cmpf (F := Ideal) (φ := .f32) .ogt x (FloatOps.ofBits (F := Ideal) .f32 0x3F000000#32)).setWidth 32)

/-- The projected features: entry (n, o) is  Σ_k (feat(n, k) · norm(n)) · (indicator(mask(k, o)) · weight(k, o)). -/
def projected (feat : S100000x256.Idx → Elt Ideal .f32) (norm : S100000x1.Idx → Elt Ideal .f32)
    (weight mask : S256x128.Idx → Elt Ideal .f32) : S100000x128.Idx → Elt Ideal .bf16 :=
  fun i => ∑ k : Fin 256, (feat (ix2 (i 0) k) * norm (ix2 (i 0) (0 : Fin 1))) * (indicator (mask (ix2 k (i 1))) * weight (ix2 k (i 1)))

/-! ## The block product's operand indices: rows of the left block against columns of the right -/

theorem lhs_row (i : S4000x128.Idx) (q : dot_S4000x256_S256x128_S4000x128_1_0_0_1_n_n.contr.Idx) : (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_contracted (i : S4000x128.Idx) (q : dot_S4000x256_S256x128_S4000x128_1_0_0_1_n_n.contr.Idx) : (dot_S4000x256_S256x128_S4000x128_1_0_0_1_n_n.lhsIdx i q 1).val = (q ⟨0, by decide⟩).val :=
  dot_S4000x256_S256x128_S4000x128_1_0_0_1_n_n.lhsIdx_val_of_single rfl i q
theorem rhs_contracted (i : S4000x128.Idx) (q : dot_S4000x256_S256x128_S4000x128_1_0_0_1_n_n.contr.Idx) : (dot_S4000x256_S256x128_S4000x128_1_0_0_1_n_n.rhsIdx i q 0).val = (q ⟨0, by decide⟩).val :=
  dot_S4000x256_S256x128_S4000x128_1_0_0_1_n_n.rhsIdx_val_of_single rfl i q
theorem rhs_column (i : S4000x128.Idx) (q : dot_S4000x256_S256x128_S4000x128_1_0_0_1_n_n.contr.Idx) : (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-! ## One block -/

/-- Rounding to a narrower format is the identity on the extended reals, entry by entry. -/
theorem truncf_entry {s : Shape} {φ ψ : FTy} (x : FVec Ideal s φ) (h : ψ.bits < φ.bits) (j : s.Idx) : truncf ψ x h j = x j := rfl

/-- The left operand of the block product at (p, k): the feature times its row's norm. -/
theorem left_entry (v7 : Vec Ideal S4000x256 .f32) (v8 : Vec Ideal S4000x1 .f32) (p : Fin 4000) (k : Fin 256) :
    (truncf (F := Ideal) .bf16 (mulf (F := Ideal) v7 (broadcastTo S4000x256 (shapeCast S4000x1 v8 shapeCasts_S4000x1_S4000x1) broadcasts_S4000x1_S4000x256)) bitsLt_bf16_f32 (ix2 p k) : EReal)
      = v7 (ix2 p k) * v8 (ix2 p (0 : Fin 1)) := by
  have eL : broadcastTo S4000x256 (shapeCast S4000x1 v8 shapeCasts_S4000x1_S4000x1) broadcasts_S4000x1_S4000x256 (ix2 p k) = v8 (ix2 p (0 : Fin 1)) := by
    rw [shapeCast_self]; exact Cert.Lib.ColumnLayout.broadcastTo_a1_ab_apply v8 _ p k 0
  show (v7 (ix2 p k) * broadcastTo S4000x256 (shapeCast S4000x1 v8 shapeCasts_S4000x1_S4000x1) broadcasts_S4000x1_S4000x256 (ix2 p k) : EReal) = _
  rw [eL]

/-- The right operand of the block product at (k, o): the indicator of the mask entry times the weight entry. -/
theorem right_entry (v0 v5 : Vec Ideal S256x128 .f32) (k : Fin 256) (o : Fin 128) :
    (truncf (F := Ideal) .bf16 (mulf (F := Ideal) (sitofp (F := Ideal) .f32 (extui 32 (cmpf (F := Ideal) .ogt v0 (broadcast S256x128 (Scalar.ofBits (F := Ideal) .f32 0x3F000000#32))) natLt_1_32)) v5) bitsLt_bf16_f32 (ix2 k o) : EReal)
      = indicator (v0 (ix2 k o)) * v5 (ix2 k o) := rfl

/-- What one block stores, entry by entry: the row-by-column sum of the normalized feature rows against the
    indicator-weighted weight columns. -/
theorem stored_entry (v0 v5 : Vec Ideal S256x128 .f32) (v7 : Vec Ideal S4000x256 .f32) (v8 : Vec Ideal S4000x1 .f32) (p : Fin 4000) (o : Fin 128) :
    k0_pay1 v0 v5 v7 v8 (ix2 p o)
      = ∑ k : Fin 256, (v7 (ix2 p k) * v8 (ix2 p (0 : Fin 1))) * (indicator (v0 (ix2 k o)) * v5 (ix2 k o)) := by
  unfold k0_pay1
  refine (truncf_entry (s := S4000x128) (φ := .f32) (ψ := .bf16) _ bitsLt_bf16_f32 (ix2 p o)).trans ?_
  refine (Cert.Lib.RowColumn.matmul_zero_entry (M := 4000) (K := 256) (N := 128) dot_S4000x256_S256x128_S4000x128_1_0_0_1_n_n rfl rfl
    lhs_row lhs_contracted rhs_contracted rhs_column none _ _ (ix2 p o)).trans ?_
  refine Finset.sum_congr rfl fun k _ => ?_
  exact congrArg₂ (· * ·) (left_entry v7 v8 p k) (right_entry v0 v5 k o)

/-- One block's stored entry is the projected array's entry 4000·T rows further down, whenever the loaded blocks are the
    corresponding pieces of the four arrays. -/
theorem block_entry (feat : S100000x256.Idx → Elt Ideal .f32) (norm : S100000x1.Idx → Elt Ideal .f32)
    (weight mask : S256x128.Idx → Elt Ideal .f32)
    (v0 v5 : Vec Ideal S256x128 .f32) (v7 : Vec Ideal S4000x256 .f32) (v8 : Vec Ideal S4000x1 .f32)
    (y : S4000x128.Idx) (i : S100000x128.Idx)
    (h7 : ∀ k : Fin 256, v7 (ix2 (n0 := 4000) (n1 := 256) (y 0) k) = feat (ix2 (i 0) k))
    (h8 : v8 (ix2 (n0 := 4000) (n1 := 1) (y 0) (0 : Fin 1)) = norm (ix2 (i 0) (0 : Fin 1)))
    (h0 : ∀ k : Fin 256, v0 (ix2 (n0 := 256) (n1 := 128) k (y 1)) = mask (ix2 k (i 1)))
    (h5 : ∀ k : Fin 256, v5 (ix2 (n0 := 256) (n1 := 128) k (y 1)) = weight (ix2 k (i 1))) :
    k0_pay1 v0 v5 v7 v8 y = projected feat norm weight mask i := by
  have hy : y = ix2 (n0 := 4000) (n1 := 128) (y 0) (y 1) := eq_ix2 y
  rw [hy, stored_entry (p := y 0) (o := y 1)]
  unfold projected
  refine Finset.sum_congr rfl fun k _ => ?_
  rw [h7 k, h8, h0 k, h5 k]

/-! ## From the 25 blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the three row-blocked windows sit at block row t, the two matrices at (0, 0). -/
theorem block_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT GRID POINT t WRITES BACK is block t of the projected array of the four arrays as the region finds them. -/
theorem flushed_eq (c : Dev nD) (t : Fin cfg0.N) :
    (dat0 V c).flushed 4 t = ((cfg0.win 4).blk t).view.read (Elt Ideal)
      (projected (V c main_arg0) (V c main_v11) (V c main_arg4) (V c main_arg6)) := by
  show (cfg0.win 4).cut (grid0.coords t) ((dat0 V c).after 4 t) = _
  rw [after0_4]
  unfold out0_4
  rw [View.canon_unit_zero origin]
  simp only [View.ld_unit_zero (S := S4000x256) origin, View.ld_unit_zero (S := S4000x1) origin, View.ld_unit_zero (S := S256x128) origin]
  obtain ⟨a0, a1, b0, b1, c0, c1, d0, d1, e0, e1⟩ := block_rows t
  funext j
  refine block_entry (V c main_arg0) (V c main_v11) (V c main_arg4) (V c main_arg6)
    (iblk0 V c 3 t) (iblk0 V c 2 t) (iblk0 V c 0 t) (iblk0 V c 1 t) j (((cfg0.win 4).blk t).view.emb j)
    (fun k => ?_) ?_ (fun k => ?_) (fun k => ?_)
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 256 + 1 * k.val = k.val; omega
  · show V c main_v11 (((cfg0.win 1).blk t).view.emb (ix2 (j 0) (0 : Fin 1))) = V c main_v11 (ix2 ((((cfg0.win 4).blk t).view.emb j) 0) (0 : Fin 1))
    refine congrArg (V c main_v11) (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 1 + 1 * 0 = 0; omega
  · show V c main_arg6 (((cfg0.win 3).blk t).view.emb (ix2 k (j 1))) = V c main_arg6 (ix2 k ((((cfg0.win 4).blk t).view.emb j) 1))
    refine congrArg (V c main_arg6) (funext fun a => Fin.ext ?_)
    match a with
    | ⟨0, _⟩ => show win0_3.index t (0 : Fin 2) * 256 + 1 * k.val = k.val; omega
    | ⟨1, _⟩ => show win0_3.index t (1 : Fin 2) * 128 + 1 * (j 1).val = win0_4.index t (1 : Fin 2) * 128 + 1 * (j 1).val; omega
  · show V c main_arg4 (((cfg0.win 2).blk t).view.emb (ix2 k (j 1))) = V c main_arg4 (ix2 k ((((cfg0.win 4).blk t).view.emb j) 1))
    refine congrArg (V c main_arg4) (funext fun a => Fin.ext ?_)
    match a with
    | ⟨0, _⟩ => show win0_2.index t (0 : Fin 2) * 256 + 1 * k.val = k.val; omega
    | ⟨1, _⟩ => show win0_2.index t (1 : Fin 2) * 128 + 1 * (j 1).val = win0_4.index t (1 : Fin 2) * 128 + 1 * (j 1).val; omega

/-- An index of the output is in point t's block iff each coordinate is in the block's range on its axis. -/
theorem mem_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v15).slice (win0_4.rect t)).set ↔ _
  rw [View.set_slice_whole, Rect.mem_set_unit]
  exact Iff.rfl

/-- Every row lies in the block of the point  row / 4000. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨a0, a1, b0, b1, c0, c1, d0, d1, e0, e1⟩ := block_rows t
  have ht : t.val = (i 0).val / 4000 := rfl
  refine ⟨t, flush0_4 t, ?_⟩
  rw [mem_block]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- THE OUTPUT ARRAY after the region's last point: the projected array of the four arrays the region was entered with. -/
theorem output_array (c : Dev nD) :
    (dat0 V c).arrAt 4 cfg0.N = projected (V c main_arg0) (V c main_v11) (V c main_arg4) (V c main_arg6) :=
  (dat0 V c).arrAt_eq_of_cover 4 _ (fun t _ => flushed_eq V c t) covered

end Cert.KernelIdeal.Project

end
-- ==== Proof.FinalizeRegion.lean ====
/-
  The finalizing region: the aggregated rows scaled by the destination-degree norm, plus the bias.

  The region walks the 100000 rows in 25 blocks of 4000.  At block t it reads rows 4000·t … 4000·t+3999 of the
  aggregated array [100000, 128] and of the norm column [100000, 1], and the whole bias row [1, 128]; it writes
  rows 4000·t … 4000·t+3999 of the result, entry (p, o) being  raw(p, o) · norm(p) + bias(o).  The 25 blocks tile the
  result, so after the last block the result array is that expression at every index.
-/
import proofs.«105192_j89515708383727_2_alg».proof.Proof.Gen.KernelIdeal.Frame
import proofs.«105192_j89515708383727_2_alg».proof.Proof.LibColumnLayout
import Idealize.ShloMosaic.Lib.Pipeline.Value
import Idealize.ShloMosaic.Lib.ValueIdx

set_option maxRecDepth 16384

noncomputable section

namespace Cert.KernelIdeal.Finalize

open Cert.KernelIdeal Cert.KernelIdeal.Gen
open Idealize.ShloMosaic Idealize.ShloMosaic.TcCoe Idealize.ShloMosaic.ValueIdx Idealize.SL.Sem
open Idealize.ShloMosaic.Pipeline (Dat)

/-- The finalized array: entry (n, o) is  raw(n, o) · norm(n) + bias(o). -/
def finalized (raw : S100000x128.Idx → Elt Ideal .f32) (norm : S100000x1.Idx → Elt Ideal .f32) (bias : S1x128.Idx → Elt Ideal .f32) :
    S100000x128.Idx → Elt Ideal .f32 :=
  fun i => raw i * norm (ix2 (i 0) (0 : Fin 1)) + bias (ix2 (0 : Fin 1) (i 1))

/-- A row [1, b] repeated down to [a, b] reads, at (p, c), the row at (0, c). -/
theorem broadcast_row_apply {α : Type} (v : S1x128.Idx → α) (h : S1x128.Broadcasts S4000x128) (p : Fin 4000) (c : Fin 128) :
    broadcastTo S4000x128 v h (ix2 p c) = v (ix2 (0 : Fin 1) c) := by
  refine broadcastTo_apply v h (ix2 p c) (ix2 (0 : Fin 1) c) fun ax => ?_
  match ax with
  | ⟨0, _⟩ => show (0 : ℕ) = if (1 : ℕ) = 1 then 0 else p.val; rw [if_pos rfl]
  | ⟨1, _⟩ => show c.val = if (128 : ℕ) = 1 then 0 else c.val; rw [if_neg (by decide)]

/-- What one block stores, entry by entry: the loaded rows times the loaded norm column, plus the loaded bias row. -/
theorem stored_entry (v0 : Vec Ideal S4000x128 .f32) (v2 : Vec Ideal S4000x1 .f32) (v6 : Vec Ideal S1x128 .f32) (p : Fin 4000) (o : Fin 128) :
    k1_pay1 v0 v2 v6 (ix2 p o) = v0 (ix2 p o) * v2 (ix2 p (0 : Fin 1)) + v6 (ix2 (0 : Fin 1) o) := by
  have e1 : shapeCast S4000x128 v0 shapeCasts_S4000x128_S4000x128 = v0 := shapeCast_self _ _
  have e2 : broadcastTo S4000x128 (shapeCast S4000x1 v2 shapeCasts_S4000x1_S4000x1) broadcasts_S4000x1_S4000x128 (ix2 p o) = v2 (ix2 p (0 : Fin 1)) := by
    rw [shapeCast_self]; exact Cert.Lib.ColumnLayout.broadcastTo_a1_ab_apply v2 _ p o 0
  have e3 : broadcastTo S4000x128 (shapeCast S1x128 v6 shapeCasts_S1x128_S1x128) broadcasts_S1x128_S4000x128 (ix2 p o) = v6 (ix2 (0 : Fin 1) o) := by
    rw [shapeCast_self]; exact broadcast_row_apply v6 _ p o
  show (shapeCast S4000x128 v0 shapeCasts_S4000x128_S4000x128 (ix2 p o)
      * broadcastTo S4000x128 (shapeCast S4000x1 v2 shapeCasts_S4000x1_S4000x1) broadcasts_S4000x1_S4000x128 (ix2 p o)
      + broadcastTo S4000x128 (shapeCast S1x128 v6 shapeCasts_S1x128_S1x128) broadcasts_S1x128_S4000x128 (ix2 p o) : EReal) = _
  rw [e1, e2, e3]

/-- One block's stored entry is the finalized array's entry 4000·T rows further down, whenever the three loaded blocks
    are the corresponding pieces of the three arrays. -/
theorem block_entry (raw : S100000x128.Idx → Elt Ideal .f32) (norm : S100000x1.Idx → Elt Ideal .f32) (bias : S1x128.Idx → Elt Ideal .f32)
    (v0 : Vec Ideal S4000x128 .f32) (v2 : Vec Ideal S4000x1 .f32) (v6 : Vec Ideal S1x128 .f32)
    (y : S4000x128.Idx) (i : S100000x128.Idx) (hi1 : (i 1).val = (y 1).val)
    (h0 : v0 (ix2 (n0 := 4000) (n1 := 128) (y 0) (y 1)) = raw i) (h2 : v2 (ix2 (n0 := 4000) (n1 := 1) (y 0) (0 : Fin 1)) = norm (ix2 (i 0) (0 : Fin 1)))
    (h6 : v6 (ix2 (n0 := 1) (n1 := 128) (0 : Fin 1) (y 1)) = bias (ix2 (0 : Fin 1) (i 1))) :
    k1_pay1 v0 v2 v6 y = finalized raw norm bias i := by
  have hy : y = ix2 (n0 := 4000) (n1 := 128) (y 0) (y 1) := eq_ix2 y
  rw [hy, stored_entry (p := y 0) (o := y 1), h0, h2, h6]
  rfl

variable (V : (c : Dev nD) → (b : Ref sig .tc) → Buf (Elt Ideal) ((c : Thread nD τ).loc b))

theorem origin : (![0, 0] : Fin 2 → Nat) = fun _ => 0 := funext fun a => by fin_cases a <;> rfl

/-- The printed index maps over the 25 grid points: the three row-blocked windows sit at block row t, the bias at (0, 0). -/
theorem block_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT GRID POINT t WRITES BACK is block t of the finalized array of the three arrays as the region finds them. -/
theorem flushed_eq (c : Dev nD) (t : Fin cfg1.N) :
    (dat1 V c).flushed 3 t = ((cfg1.win 3).blk t).view.read (Elt Ideal) (finalized (V c main_v29) (V c main_v14) (V c main_v30)) := by
  show (cfg1.win 3).cut (grid1.coords t) ((dat1 V c).after 3 t) = _
  rw [after1_3]
  unfold out1_3
  rw [View.canon_unit_zero origin]
  simp only [View.ld_unit_zero (S := S4000x128) origin, View.ld_unit_zero (S := S4000x1) origin, View.ld_unit_zero (S := S1x128) origin]
  obtain ⟨a0, a1, b0, b1, c0, c1, d0, d1⟩ := block_rows t
  funext j
  refine block_entry (V c main_v29) (V c main_v14) (V c main_v30) (iblk1 V c 0 t) (iblk1 V c 1 t) (iblk1 V c 2 t) j
    (((cfg1.win 3).blk t).view.emb j) ?_ ?_ ?_ ?_
  · show win1_3.index t (1 : Fin 2) * 128 + 1 * (j 1).val = (j 1).val
    omega
  · show V c main_v29 (((cfg1.win 0).blk t).view.emb (ix2 (j 0) (j 1))) = V c main_v29 (((cfg1.win 3).blk t).view.emb j)
    refine congrArg (V c main_v29) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 128 + 1 * (j 1).val = win1_3.index t (1 : Fin 2) * 128 + 1 * (j 1).val; omega
  · show V c main_v14 (((cfg1.win 1).blk t).view.emb (ix2 (j 0) (0 : Fin 1))) = V c main_v14 (ix2 ((((cfg1.win 3).blk t).view.emb j) 0) (0 : Fin 1))
    refine congrArg (V c main_v14) (funext fun a => Fin.ext ?_)
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 1 + 1 * 0 = 0; omega
  · show V c main_v30 (((cfg1.win 2).blk t).view.emb (ix2 (0 : Fin 1) (j 1))) = V c main_v30 (ix2 (0 : Fin 1) ((((cfg1.win 3).blk t).view.emb j) 1))
    refine congrArg (V c main_v30) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result is in point t's block iff each coordinate is in the block's range on its axis. -/
theorem mem_block (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v31).slice (win1_3.rect t)).set ↔ _
  rw [View.set_slice_whole, Rect.mem_set_unit]
  exact Iff.rfl

/-- Every row lies in the block of the point  row / 4000. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 4000, by show (i 0).val / 4000 < 25; omega⟩
  obtain ⟨a0, a1, b0, b1, c0, c1, d0, d1⟩ := block_rows t
  have ht : t.val = (i 0).val / 4000 := rfl
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- THE RESULT ARRAY after the region's last point: the finalized array of the three arrays the region was entered with. -/
theorem result_array (c : Dev nD) :
    (dat1 V c).arrAt 3 cfg1.N = finalized (V c main_v29) (V c main_v14) (V c main_v30) :=
  (dat1 V c).arrAt_eq_of_cover 3 _ (fun t _ => flushed_eq V c t) covered

end Cert.KernelIdeal.Finalize

end
-- ==== Proof.KernelTerms.lean ====
/-
  The idealized kernel's result as one function of its seven arguments: the terms.

  Reading the run backwards from the result buffer:

    result      = finalized(aggregated, in-degree norm column, bias row)               (the finalizing region)
    aggregated  = scatter-add over the edges, into row dst(e), of  projected(src'(e), ·) · ew(e)
                  where src' is src with negative entries shifted up by 100000        (the host stretch between the regions)
    projected   = Σ_k (feat · out-degree norm) · (indicator(mask) · weight)            (the projection region)
    degree norm = max(1, number of edges with that endpoint) ^ (−1/2)                  (the five host stretches before the regions)

  Each host operation is kept closed: only its position in the composition matters.
-/
import proofs.«105192_j89515708383727_2_alg».proof.Proof.ProjectRegion
import proofs.«105192_j89515708383727_2_alg».proof.Proof.FinalizeRegion
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-- The degree norm of the nodes for one endpoint array: count the edges per node (scatter-add of ones into zeros),
    clamp below at one, raise to the power −1/2. -/
def degreeNorm (ends : IVec S1600000 32) : FVec Ideal S100000 .f32 :=
  Host.powf
    (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 ends)
        (broadcastInDim S1600000 ![] bcast_S_S1600000 (constant (F := Ideal) S_ .f32 0x3F800000#32))))
    (broadcastInDim S100000 ![] bcast_S_S100000 (constant (F := Ideal) S_ .f32 0xBF000000#32))

/-- The same as a column [100000, 1]. -/
def normColumn (ends : IVec S1600000 32) : FVec Ideal S100000x1 .f32 :=
  shapeCast S100000x1 (degreeNorm ends) shapeCasts_S100000_S100000x1

/-- The aggregation over the edges: gather the projected rows at the (shifted) sources, scale each by its edge weight,
    scatter-add into the destination rows of a zero array. -/
def aggregated (proj : FVec Ideal S100000x128 .bf16) (src dst : IVec S1600000 32) (ew : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (extf .f32
        (Host.gather gather_S100000x128_S1600000x1_S1600000x128_1_0_n_n_0_1_1128 proj
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        bitsLt_bf16_f32)
      (broadcastInDim S1600000x128 ![0, 1] bcast_S1600000x1_S1600000x128_0_1
        (broadcastInDim S1600000x1 ![0] bcast_S1600000_S1600000x1_0 ew)))

/-- THE KERNEL'S VALUE: its result array as a function of the seven argument arrays. -/
def value (feat : FVec Ideal S100000x256 .f32) (src dst : IVec S1600000 32) (ew : FVec Ideal S1600000 .f32)
    (weight : FVec Ideal S256x128 .f32) (bias : FVec Ideal S128 .f32) (mask : FVec Ideal S256x128 .f32) :
    FVec Ideal S100000x128 .f32 :=
  Finalize.finalized
    (aggregated (Project.projected feat (normColumn src) weight mask) src dst ew)
    (normColumn dst)
    (shapeCast S1x128 bias shapeCasts_S128_S1x128)

end Cert.KernelIdeal.KValue

end
-- ==== Proof.FoldArguments.lean ====
/-
  The argument arrays through the first six segments.

  No host operation before the finalizing region writes an argument array, and the projection region only reads the
  ones it takes; so at the entry of the projection region the features, the weights and the mask, and at its exit the two
  endpoint arrays, the edge weights and the bias, still hold their launch contents.
-/
import proofs.«105192_j89515708383727_2_alg».proof.Proof.Gen.KernelIdeal.Frame
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem enter0_feat (c : Dev nD) : V5 m ρ c main_arg0 = m ((c : Thread nD τ).loc main_arg0) := by
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg0) = _
  after_results
theorem enter0_weight (c : Dev nD) : V5 m ρ c main_arg4 = m ((c : Thread nD τ).loc main_arg4) := by
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg4) = _
  after_results
theorem enter0_mask (c : Dev nD) : V5 m ρ c main_arg6 = m ((c : Thread nD τ).loc main_arg6) := by
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg6) = _
  after_results
theorem exit0_src (c : Dev nD) : W6 m ρ c (Proc.devRef .tc main_arg1) = m ((c : Thread nD τ).loc main_arg1) := by
  refine (W6_of_ne m ρ c main_arg1 (by decide)).trans ?_
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg1) = _
  after_results
theorem exit0_dst (c : Dev nD) : W6 m ρ c (Proc.devRef .tc main_arg2) = m ((c : Thread nD τ).loc main_arg2) := by
  refine (W6_of_ne m ρ c main_arg2 (by decide)).trans ?_
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg2) = _
  after_results
theorem exit0_ew (c : Dev nD) : W6 m ρ c (Proc.devRef .tc main_arg3) = m ((c : Thread nD τ).loc main_arg3) := by
  refine (W6_of_ne m ρ c main_arg3 (by decide)).trans ?_
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg3) = _
  after_results
theorem exit0_bias (c : Dev nD) : W6 m ρ c (Proc.devRef .tc main_arg5) = m ((c : Thread nD τ).loc main_arg5) := by
  refine (W6_of_ne m ρ c main_arg5 (by decide)).trans ?_
  show StableHlo.after (Val := Elt Ideal) hostOps0_4 (StableHlo.after (Val := Elt Ideal) hostOps0_3 (StableHlo.after (Val := Elt Ideal) hostOps0_2 (StableHlo.after (Val := Elt Ideal) hostOps0_1 (StableHlo.after (Val := Elt Ideal) hostOps0 (W0 m ρ c))))) (Proc.devRef .tc main_arg5) = _
  after_results

end Cert.KernelIdeal.KValue

end
-- ==== Proof.FoldNorms.lean ====
/-
  The two degree-norm columns through the five host stretches before the projection region.

  Each stretch is read by itself, from an arbitrary state of the buffers at its entry:

    stretch 1  counts the out-degrees: scatter-add of a vector of ones, along src, into zeros; it also writes the ones;
    stretch 2  (the first clamp) takes the maximum with one;
    stretch 3  counts the in-degrees the same way, along dst, reusing the ones;
    stretch 4  (the second clamp) takes the maximum with one;
    stretch 5  raises both to the power −1/2 and reshapes each to a column.

  Composing them gives the two norm columns as functions of the two endpoint arrays.
-/
import proofs.«105192_j89515708383727_2_alg».proof.Proof.KernelTerms
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-- The clamp at one and the power −1/2 of a vector of counts. -/
def normOfCounts (counts : FVec Ideal S100000 .f32) : FVec Ideal S100000 .f32 :=
  Host.powf
    (maximumf (broadcastInDim S100000 ![] bcast_S_S100000 (id (constant (F := Ideal) S_ .f32 0x3F800000#32))) counts)
    (broadcastInDim S100000 ![] bcast_S_S100000 (constant (F := Ideal) S_ .f32 0xBF000000#32))

/-- The edge count per node for one endpoint array: ones scatter-added into zeros. -/
def countsOf (ends : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 ends)
    (broadcastInDim S1600000 ![] bcast_S_S1600000 (constant (F := Ideal) S_ .f32 0x3F800000#32))

theorem degreeNorm_eq (ends : IVec S1600000 32) : degreeNorm ends = normOfCounts (countsOf ends) := rfl

/-! ## The stretches, one at a time, from any entry state -/

section Stretches
variable (W : Valuation τ sig (Elt Ideal))

/-- Stretch 1 writes the out-degree counts … -/
theorem stretch1_counts : StableHlo.after (Val := Elt Ideal) hostOps0 W (Proc.devRef .tc main_v3) = countsOf (W (Proc.devRef .tc main_arg1)) := by
  after_results
  try rfl
/-- … the vector of ones the counts are made of … -/
theorem stretch1_ones : StableHlo.after (Val := Elt Ideal) hostOps0 W (Proc.devRef .tc main_v0)
    = broadcastInDim S1600000 ![] bcast_S_S1600000 (constant (F := Ideal) S_ .f32 0x3F800000#32) := by
  after_results
  try rfl
/-- … and the scalar one the first clamp takes. -/
theorem stretch1_one : StableHlo.after (Val := Elt Ideal) hostOps0 W (Proc.devRef .tc main_cst_1) = constant (F := Ideal) S_ .f32 0x3F800000#32 := by
  after_results
  try rfl
/-- Stretch 1 leaves the destination array alone. -/
theorem stretch1_dst : StableHlo.after (Val := Elt Ideal) hostOps0 W (Proc.devRef .tc main_arg2) = W (Proc.devRef .tc main_arg2) := by
  after_results
  try rfl

/-- Stretch 2, the first clamp: the maximum of the broadcast scalar and the counts. -/
theorem stretch2_clamped : (StableHlo.after (Val := Elt Ideal) hostOps0_1 W (Proc.devRef .tc main_v4) : FVec Ideal S100000 .f32)
    = maximumf (F := Ideal) (s := S100000) (φ := .f32) (broadcastInDim S100000 ![] bcast_S_S100000 (id (W (Proc.devRef .tc main_cst_1) : FVec Ideal S_ .f32)))
        (W (Proc.devRef .tc main_v3) : FVec Ideal S100000 .f32) := by
  after_results
  try rfl
theorem stretch2_ones : StableHlo.after (Val := Elt Ideal) hostOps0_1 W (Proc.devRef .tc main_v0) = W (Proc.devRef .tc main_v0) := by
  after_results
  try rfl
theorem stretch2_dst : StableHlo.after (Val := Elt Ideal) hostOps0_1 W (Proc.devRef .tc main_arg2) = W (Proc.devRef .tc main_arg2) := by
  after_results
  try rfl

/-- Stretch 3 writes the in-degree counts, from the ones already there … -/
theorem stretch3_counts : StableHlo.after (Val := Elt Ideal) hostOps0_2 W (Proc.devRef .tc main_v7)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg2)))
        (W (Proc.devRef .tc main_v0)) := by
  after_results
  try rfl
/-- … and the scalar one the second clamp takes; the first clamp's result stays. -/
theorem stretch3_one : StableHlo.after (Val := Elt Ideal) hostOps0_2 W (Proc.devRef .tc main_cst_3) = constant (F := Ideal) S_ .f32 0x3F800000#32 := by
  after_results
  try rfl
theorem stretch3_clamped : StableHlo.after (Val := Elt Ideal) hostOps0_2 W (Proc.devRef .tc main_v4) = W (Proc.devRef .tc main_v4) := by
  after_results
  try rfl

/-- Stretch 4, the second clamp. -/
theorem stretch4_clamped : (StableHlo.after (Val := Elt Ideal) hostOps0_3 W (Proc.devRef .tc main_v8) : FVec Ideal S100000 .f32)
    = maximumf (F := Ideal) (s := S100000) (φ := .f32) (broadcastInDim S100000 ![] bcast_S_S100000 (id (W (Proc.devRef .tc main_cst_3) : FVec Ideal S_ .f32)))
        (W (Proc.devRef .tc main_v7) : FVec Ideal S100000 .f32) := by
  after_results
  try rfl
theorem stretch4_first : StableHlo.after (Val := Elt Ideal) hostOps0_3 W (Proc.devRef .tc main_v4) = W (Proc.devRef .tc main_v4) := by
  after_results
  try rfl

/-- Stretch 5: each clamped count vector to the power −1/2, reshaped to a column. -/
theorem stretch5_out : (StableHlo.after (Val := Elt Ideal) hostOps0_4 W (Proc.devRef .tc main_v11) : FVec Ideal S100000x1 .f32)
    = shapeCast S100000x1 (Host.powf (F := Ideal) (W (Proc.devRef .tc main_v4) : FVec Ideal S100000 .f32)
        (broadcastInDim S100000 ![] bcast_S_S100000 (constant (F := Ideal) S_ .f32 0xBF000000#32))) shapeCasts_S100000_S100000x1 := by
  after_results
  try rfl
theorem stretch5_in : (StableHlo.after (Val := Elt Ideal) hostOps0_4 W (Proc.devRef .tc main_v14) : FVec Ideal S100000x1 .f32)
    = shapeCast S100000x1 (Host.powf (F := Ideal) (W (Proc.devRef .tc main_v8) : FVec Ideal S100000 .f32)
        (broadcastInDim S100000 ![] bcast_S_S100000 (constant (F := Ideal) S_ .f32 0xBF000000#32))) shapeCasts_S100000_S100000x1 := by
  after_results
  try rfl

end Stretches

/-! ## The stretches composed, from the launch memory -/

variable (m : (ℓ : Loc nD τ sig) → Buf (Elt Ideal) ℓ) (ρ : Dev nD → PrngReg)

/-- The first clamp's result, carried unchanged through stretches 3 and 4, is the clamped out-degree count. -/
theorem out_clamped (c : Dev nD) :
    (W4 m ρ c (Proc.devRef .tc main_v4) : FVec Ideal S100000 .f32)
      = maximumf (F := Ideal) (s := S100000) (φ := .f32) (broadcastInDim S100000 ![] bcast_S_S100000 (id (constant (F := Ideal) S_ .f32 0x3F800000#32))) (countsOf (m ((c : Thread nD τ).loc main_arg1))) :=
  calc (W4 m ρ c (Proc.devRef .tc main_v4) : FVec Ideal S100000 .f32)
      _ = W3 m ρ c (Proc.devRef .tc main_v4) := stretch4_first (W3 m ρ c)
      _ = W2 m ρ c (Proc.devRef .tc main_v4) := stretch3_clamped (W2 m ρ c)
      _ = maximumf (F := Ideal) (s := S100000) (φ := .f32) (broadcastInDim S100000 ![] bcast_S_S100000 (id (W1 m ρ c (Proc.devRef .tc main_cst_1) : FVec Ideal S_ .f32)))
            (W1 m ρ c (Proc.devRef .tc main_v3) : FVec Ideal S100000 .f32) := stretch2_clamped (W1 m ρ c)
      _ = maximumf (F := Ideal) (s := S100000) (φ := .f32) (broadcastInDim S100000 ![] bcast_S_S100000 (id (constant (F := Ideal) S_ .f32 0x3F800000#32))) (countsOf (m ((c : Thread nD τ).loc main_arg1))) := by
        rw [show (W1 m ρ c (Proc.devRef .tc main_cst_1) : FVec Ideal S_ .f32) = constant (F := Ideal) S_ .f32 0x3F800000#32 from stretch1_one (W0 m ρ c),
          show (W1 m ρ c (Proc.devRef .tc main_v3) : FVec Ideal S100000 .f32) = countsOf (m ((c : Thread nD τ).loc main_arg1)) from stretch1_counts (W0 m ρ c)]

/-- The projection region is entered with the out-degree norm column of the source array. -/
theorem enter0_norm (c : Dev nD) : V5 m ρ c main_v11 = normColumn (m ((c : Thread nD τ).loc main_arg1)) :=
  calc (V5 m ρ c main_v11 : FVec Ideal S100000x1 .f32)
      _ = shapeCast S100000x1 (Host.powf (F := Ideal) (W4 m ρ c (Proc.devRef .tc main_v4) : FVec Ideal S100000 .f32)
            (broadcastInDim S100000 ![] bcast_S_S100000 (constant (F := Ideal) S_ .f32 0xBF000000#32))) shapeCasts_S100000_S100000x1 := stretch5_out (W4 m ρ c)
      _ = normColumn (m ((c : Thread nD τ).loc main_arg1)) := by rw [out_clamped]; rfl

/-- The in-degree counts after stretch 3: the ones of stretch 1 scatter-added along the destination array. -/
theorem in_counts (c : Dev nD) :
    (W3 m ρ c (Proc.devRef .tc main_v7) : FVec Ideal S100000 .f32) = countsOf (m ((c : Thread nD τ).loc main_arg2)) :=
  calc (W3 m ρ c (Proc.devRef .tc main_v7) : FVec Ideal S100000 .f32)
      _ = Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (W2 m ρ c (Proc.devRef .tc main_arg2)))
            (W2 m ρ c (Proc.devRef .tc main_v0)) := stretch3_counts (W2 m ρ c)
      _ = countsOf (m ((c : Thread nD τ).loc main_arg2)) := by
        rw [show W2 m ρ c (Proc.devRef .tc main_arg2) = W1 m ρ c (Proc.devRef .tc main_arg2) from stretch2_dst (W1 m ρ c),
          show W1 m ρ c (Proc.devRef .tc main_arg2) = m ((c : Thread nD τ).loc main_arg2) from stretch1_dst (W0 m ρ c),
          show W2 m ρ c (Proc.devRef .tc main_v0) = W1 m ρ c (Proc.devRef .tc main_v0) from stretch2_ones (W1 m ρ c),
          show (W1 m ρ c (Proc.devRef .tc main_v0) : FVec Ideal S1600000 .f32)
            = broadcastInDim S1600000 ![] bcast_S_S1600000 (constant (F := Ideal) S_ .f32 0x3F800000#32) from stretch1_ones (W0 m ρ c)]
        rfl

/-- The second clamp's result is the clamped in-degree count. -/
theorem in_clamped (c : Dev nD) :
    (W4 m ρ c (Proc.devRef .tc main_v8) : FVec Ideal S100000 .f32)
      = maximumf (F := Ideal) (s := S100000) (φ := .f32) (broadcastInDim S100000 ![] bcast_S_S100000 (id (constant (F := Ideal) S_ .f32 0x3F800000#32))) (countsOf (m ((c : Thread nD τ).loc main_arg2))) :=
  calc (W4 m ρ c (Proc.devRef .tc main_v8) : FVec Ideal S100000 .f32)
      _ = maximumf (F := Ideal) (s := S100000) (φ := .f32) (broadcastInDim S100000 ![] bcast_S_S100000 (id (W3 m ρ c (Proc.devRef .tc main_cst_3) : FVec Ideal S_ .f32)))
            (W3 m ρ c (Proc.devRef .tc main_v7) : FVec Ideal S100000 .f32) := stretch4_clamped (W3 m ρ c)
      _ = maximumf (F := Ideal) (s := S100000) (φ := .f32) (broadcastInDim S100000 ![] bcast_S_S100000 (id (constant (F := Ideal) S_ .f32 0x3F800000#32))) (countsOf (m ((c : Thread nD τ).loc main_arg2))) := by
        rw [show (W3 m ρ c (Proc.devRef .tc main_cst_3) : FVec Ideal S_ .f32) = constant (F := Ideal) S_ .f32 0x3F800000#32 from stretch3_one (W2 m ρ c), in_counts]

/-- At the projection region's exit the in-degree norm column of the destination array is in place. -/
theorem exit0_innorm (c : Dev nD) : W6 m ρ c (Proc.devRef .tc main_v14) = normColumn (m ((c : Thread nD τ).loc main_arg2)) := by
  refine (W6_of_ne m ρ c main_v14 (by decide)).trans ?_
  exact
    calc (W5 m ρ c (Proc.devRef .tc main_v14) : FVec Ideal S100000x1 .f32)
      _ = shapeCast S100000x1 (Host.powf (F := Ideal) (W4 m ρ c (Proc.devRef .tc main_v8) : FVec Ideal S100000 .f32)
            (broadcastInDim S100000 ![] bcast_S_S100000 (constant (F := Ideal) S_ .f32 0xBF000000#32))) shapeCasts_S100000_S100000x1 := stretch5_in (W4 m ρ c)
      _ = normColumn (m ((c : Thread nD τ).loc main_arg2)) := by rw [in_clamped]; rfl

end Cert.KernelIdeal.KValue

end
-- ==== Proof.FoldMiddle.lean ====
/-
  What the finalizing region is entered with.

  The stretch of host operations between the two regions gathers the projected rows along the edges, scales them by the
  edge weights and scatter-adds them into the destination rows; it also reshapes the bias to a row.  The in-degree norm
  column was computed before the projection region and is touched by nothing since.
-/
import proofs.«105192_j89515708383727_2_alg».proof.Proof.KernelTerms
import proofs.«105192_j89515708383727_2_alg».proof.Proof.FoldArguments
import proofs.«105192_j89515708383727_2_alg».proof.Proof.FoldNorms
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem enter1_norm (c : Dev nD) : V7 m ρ c main_v14 = normColumn (m ((c : Thread nD τ).loc main_arg2)) := by
  show StableHlo.after (Val := Elt Ideal) hostOps1 (W6 m ρ c) (Proc.devRef .tc main_v14) = _
  after_results
  exact exit0_innorm m ρ c

theorem enter1_bias (c : Dev nD) : V7 m ρ c main_v30 = shapeCast S1x128 (m ((c : Thread nD τ).loc main_arg5)) shapeCasts_S128_S1x128 := by
  show StableHlo.after (Val := Elt Ideal) hostOps1 (W6 m ρ c) (Proc.devRef .tc main_v30) = _
  after_results
  rw [exit0_bias]
  rfl

set_option maxHeartbeats 2000000 in
theorem enter1_aggregated (c : Dev nD) :
    V7 m ρ c main_v29 = aggregated (W6 m ρ c (Proc.devRef .tc main_v15)) (m ((c : Thread nD τ).loc main_arg1))
      (m ((c : Thread nD τ).loc main_arg2)) (m ((c : Thread nD τ).loc main_arg3)) := by
  show StableHlo.after (Val := Elt Ideal) hostOps1 (W6 m ρ c) (Proc.devRef .tc main_v29) = _
  after_results_simp
  rw [exit0_src, exit0_dst, exit0_ew]
  rfl

end Cert.KernelIdeal.KValue

end
-- ==== Proof.KernelValue.lean ====
/-
  The idealized kernel's run, read: its result is its value of the arguments.

  The result buffer at the end of the run is the finalizing region's output array; that is the finalized array of what
  the region was entered with (FinalizeRegion); those three arrays are the aggregation of the projection region's output
  (FoldMiddle), the in-degree norm column and the bias row; and the projection region's output is the projected array
  of what it was entered with (ProjectRegion): the features, the out-degree norm column, the weights and the mask
  (FoldArguments, FoldNorms).
-/
import proofs.«105192_j89515708383727_2_alg».proof.Proof.KernelRun
import proofs.«105192_j89515708383727_2_alg».proof.Proof.KernelTerms
import proofs.«105192_j89515708383727_2_alg».proof.Proof.FoldArguments
import proofs.«105192_j89515708383727_2_alg».proof.Proof.FoldNorms
import proofs.«105192_j89515708383727_2_alg».proof.Proof.FoldMiddle

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the projection region its output array holds the projected features of the arguments. -/
theorem projected_array (c : Dev nD) :
    W6 m ρ c (Proc.devRef .tc main_v15)
      = Project.projected (m ((c : Thread nD τ).loc main_arg0)) (normColumn (m ((c : Thread nD τ).loc main_arg1)))
          (m ((c : Thread nD τ).loc main_arg4)) (m ((c : Thread nD τ).loc main_arg6)) := by
  refine (W6_arr m ρ c 4).trans ((Project.output_array (V5 m ρ) c).trans ?_)
  rw [enter0_feat, enter0_norm, enter0_weight, enter0_mask]

/-! ## The result -/

/-- The result buffer at the end of the fold is the kernel's value of the launch contents of the arguments. -/
theorem result_value (c : Dev nD) :
    W8 m ρ c (Proc.devRef .tc main_v31)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (KRun.result_eq_arrAt m ρ c).trans ((Finalize.result_array (V7 m ρ) c).trans ?_)
  rw [enter1_aggregated, enter1_norm, enter1_bias, projected_array]
  rfl

/-- THE RUN, READ: every weakly fair execution of the idealized kernel terminates without a fault, with the result
    buffer at the kernel's value of the arguments and the arguments as launched. -/
theorem run : θ_run defs (onTc (τ := τ) (main (F := Ideal))) ⟨m, fun _ => 0, ρ⟩ (fun r => ∀ c : Dev nD,
      r.2.mem ((c.tc : Thread nD τ).loc main_v31)
        = value (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_value m ρ c), (h c).2⟩) (KRun.run_result m ρ)

end Cert.KernelIdeal.KValue

end
-- ==== Proof.ReferenceTerms.lean ====
/-
  The reference's result term, and the parts of it that are the kernel's host operations verbatim.

  The degree norm (count, clamp, power) and the aggregation over the edges (gather, scale, scatter-add) are spelt with
  the same operations in both programs; each program's text has its own copy of the dimension records of the
  scatters and of the gather, with the same numbers in them.  The kernel's aggregation also widens the gathered rows from
  bfloat16, which changes nothing on the extended reals.
-/
import proofs.«105192_j89515708383727_2_alg».proof.Proof.KernelTerms
import proofs.«105192_j89515708383727_2_alg».proof.Proof.Gen.ReferenceIdeal.Run
import Idealize.ShloMosaic.PureOps.Ideal

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- The reference's result as its run states it: the composed term of its host operations over the seven arguments. -/
def value (feat : FVec Ideal S100000x256 .f32) (src dst : IVec S1600000 32) (ew : FVec Ideal S1600000 .f32)
    (weight : FVec Ideal S256x128 .f32) (bias : FVec Ideal S128 .f32) (mask : FVec Ideal S256x128 .f32) :
    FVec Ideal S100000x128 .f32 :=
  addf (mulf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (mulf (Host.gather gather_S100000x128_S1600000x1_S1600000x128_1_0_n_n_0_1_1128 (Host.dotGeneral dot_S100000x256_S256x128_S100000x128_1_0_0_1_n_n none (mulf feat (broadcastInDim S100000x256 ![0, 1] bcast_S100000x1_S100000x256_0_1 (broadcastInDim S100000x1 ![0] bcast_S100000_S100000x1_0 (Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 src) (broadcastInDim S1600000 ![] bcast_S_S1600000 (constant (F := Ideal) S_ .f32 0x3F800000#32)))) (broadcastInDim S100000 ![] bcast_S_S100000 (constant (F := Ideal) S_ .f32 0xBF000000#32)))))) (mulf (addf (subf (uitofp .f32 (cmpf .ogt mask (broadcastInDim S256x128 ![] bcast_S_S256x128 (constant (F := Ideal) S_ .f32 0x3F000000#32)))) mask) mask) weight)) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 ew)))) (broadcastInDim S100000x128 ![0, 1] bcast_S100000x1_S100000x128_0_1 (broadcastInDim S100000x1 ![0] bcast_S100000_S100000x1_0 (Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32)))) (broadcastInDim S100000 ![] bcast_S_S100000 (constant (F := Ideal) S_ .f32 0xBF000000#32)))))) (broadcastInDim S100000x128 ![0, 1] bcast_S1x128_S100000x128_0_1 (broadcastInDim S1x128 ![1] bcast_S128_S1x128_1 bias))

/-! ## The two programs' dimension records hold the same numbers -/

theorem scatter_counts_eq : scatter_S100000_S1600000x1_S1600000_n_0_0_1 = Cert.KernelIdeal.scatter_S100000_S1600000x1_S1600000_n_0_0_1 := rfl
theorem scatter_rows_eq : scatter_S100000x128_S1600000x1_S1600000x128_1_0_0_1 = Cert.KernelIdeal.scatter_S100000x128_S1600000x1_S1600000x128_1_0_0_1 := rfl
theorem gather_rows_eq : gather_S100000x128_S1600000x1_S1600000x128_1_0_n_n_0_1_1128 = Cert.KernelIdeal.gather_S100000x128_S1600000x1_S1600000x128_1_0_n_n_0_1_1128 := rfl

/-- Widening from a narrower format is the identity on the extended reals. -/
theorem extf_id {s : Shape} (G : FVec Ideal s .bf16) (h : FTy.bits .bf16 < FTy.bits .f32) : extf (F := Ideal) .f32 G h = G := rfl

/-- The reference's degree norm is the kernel's: the same four host operations on the same endpoint array. -/
theorem degreeNorm_eq (ends : IVec S1600000 32) :
    Host.powf (maximumf (broadcastInDim S100000 ![] bcast_S_S100000 (id (constant (F := Ideal) S_ .f32 0x3F800000#32))) (Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 ends) (broadcastInDim S1600000 ![] bcast_S_S1600000 (constant (F := Ideal) S_ .f32 0x3F800000#32)))) (broadcastInDim S100000 ![] bcast_S_S100000 (constant (F := Ideal) S_ .f32 0xBF000000#32))
      = Cert.KernelIdeal.KValue.degreeNorm ends := by
  unfold Cert.KernelIdeal.KValue.degreeNorm
  rw [scatter_counts_eq]

/-- The reference's aggregation is the kernel's: the same gather, scaling and scatter-add. -/
theorem aggregated_eq (proj : FVec Ideal S100000x128 .f32) (src dst : IVec S1600000 32) (ew : FVec Ideal S1600000 .f32) :
    Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (mulf (Host.gather gather_S100000x128_S1600000x1_S1600000x128_1_0_n_n_0_1_1128 proj (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 ew)))
      = Cert.KernelIdeal.KValue.aggregated proj src dst ew := by
  unfold Cert.KernelIdeal.KValue.aggregated
  rw [extf_id, scatter_rows_eq, gather_rows_eq]

end Cert.ReferenceIdeal.RefValue

end
-- ==== Proof.BridgeLayout.lean ====
/-
  Three layouts read at an index: a vector of 100000 entries laid out as a column and repeated along the columns, a
  vector of 128 entries laid out as a row and repeated down the rows, and the same vector reshaped to a row.  Each reads
  the vector at the one coordinate it depends on.
-/
import Idealize.ShloMosaic.Lib.Pipeline.Value
import Idealize.ShloMosaic.Lib.ValueIdx

set_option maxRecDepth 16384

noncomputable section

/-! ## Layouts read at an index -/

namespace Cert.Bridge.Layout

open Idealize.ShloMosaic Idealize.ShloMosaic.ValueIdx

/-- A vector [100000] laid out as a column and repeated along b columns reads, at (n, k), the vector at n. -/
theorem vector_as_columns {α : Type} {b : ℕ} (D : (⟨1, ![100000]⟩ : Shape).Idx → α)
    (h1 : (⟨1, ![100000]⟩ : Shape).BroadcastsInDim ⟨2, ![100000, 1]⟩ ![0])
    (h2 : (⟨2, ![100000, 1]⟩ : Shape).BroadcastsInDim ⟨2, ![100000, b]⟩ ![0, 1]) (n : Fin 100000) (k : Fin b) :
    broadcastInDim ⟨2, ![100000, b]⟩ ![0, 1] h2 (broadcastInDim ⟨2, ![100000, 1]⟩ ![0] h1 D) (ix2 n k) = D (ix1 n) :=
  (broadcastInDim_apply ![0, 1] h2 _ (ix2 n k) (ix2 n (0 : Fin 1)) (fun a => match a with
    | ⟨0, _⟩ => by show n.val = if (100000 : ℕ) = 1 then 0 else n.val; rw [if_neg (by decide)]
    | ⟨1, _⟩ => by show (0 : ℕ) = if (1 : ℕ) = 1 then 0 else k.val; rw [if_pos rfl])).trans
  (broadcastInDim_apply ![0] h1 D (ix2 n (0 : Fin 1)) (ix1 n) (fun a => match a with
    | ⟨0, _⟩ => by show n.val = if (100000 : ℕ) = 1 then 0 else n.val; rw [if_neg (by decide)]))

/-- A vector [128] laid out as a row and repeated down 100000 rows reads, at (n, o), the vector at o. -/
theorem vector_as_rows {α : Type} (B : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![100000, 128]⟩ ![0, 1]) (n : Fin 100000) (o : Fin 128) :
    broadcastInDim ⟨2, ![100000, 128]⟩ ![0, 1] h2 (broadcastInDim ⟨2, ![1, 128]⟩ ![1] h1 B) (ix2 n o) = B (ix1 o) :=
  (broadcastInDim_apply ![0, 1] h2 _ (ix2 n o) (ix2 (0 : Fin 1) o) (fun a => match a with
    | ⟨0, _⟩ => by show (0 : ℕ) = if (1 : ℕ) = 1 then 0 else n.val; rw [if_pos rfl]
    | ⟨1, _⟩ => by show o.val = if (128 : ℕ) = 1 then 0 else o.val; rw [if_neg (by decide)])).trans
  (broadcastInDim_apply ![1] h1 B (ix2 (0 : Fin 1) o) (ix1 o) (fun a => match a with
    | ⟨0, _⟩ => by show o.val = if (128 : ℕ) = 1 then 0 else o.val; rw [if_neg (by decide)]))

/-- A vector [128] reshaped to the row [1, 128] reads, at (u, o), the vector at o. -/
theorem reshaped_row {α : Type} (B : (⟨1, ![128]⟩ : Shape).Idx → α) (h : (⟨1, ![128]⟩ : Shape).ShapeCasts ⟨2, ![1, 128]⟩)
    (u : Fin 1) (o : Fin 128) : shapeCast ⟨2, ![1, 128]⟩ B h (ix2 u o) = B (ix1 o) :=
  shapeCast_apply B h _ _ (by
    have hu : u.val = 0 := by omega
    rw [Shape.rowMajor_val_two, Shape.rowMajor_val_one]
    show o.val = u.val * 128 + o.val
    rw [hu]; omega)

end Cert.Bridge.Layout

end
-- ==== Proof.LibStraightThrough.lean ====
/-
  The straight-through mask on the extended reals.

  A binarized mask is sometimes written  (hard − m) + m , where  hard  is the 0/1 indicator of  m > threshold :
  numerically the same as  hard , but with the gradient of  m .  On the extended reals the two agree as soon as  m  is a
  real number, because then the subtraction and the addition are those of the reals and cancel.  (At an infinite  m  they
  do not:  (1 − ⊤) + ⊤  is not 1.)  The indicator itself may be produced from the one-bit comparison result in two
  ways — read as an unsigned number, or widened to 32 bits with zeros and read as a signed number — and these give the
  same real, 0 or 1.
-/
import Idealize.ShloMosaic.PureOps.Ideal

noncomputable section

namespace Cert.Lib.StraightThrough

open Idealize.ShloMosaic

/-- A one-bit flag widened with zeros to 32 bits and read signed is the flag read unsigned: both are 0 or 1. -/
theorem widened_flag_toInt (b : BitVec 1) : (b.setWidth 32).toInt = (b.toNat : Int) := by
  revert b; decide

/-- The same as real numbers. -/
theorem widened_flag_real (b : BitVec 1) : (((b.setWidth 32).toInt : ℝ) : EReal) = ((b.toNat : ℝ) : EReal) := by
  rw [widened_flag_toInt]; norm_cast

/-- For real numbers read as extended reals, subtracting and adding back the same number cancels. -/
theorem sub_add_cancel_coe (h r : ℝ) : ((h : EReal) - (r : EReal)) + (r : EReal) = (h : EReal) := by
  rw [← EReal.coe_sub, ← EReal.coe_add, sub_add_cancel]

/-- THE LAW: for a real mask value, the straight-through form  (hard − m) + m  with the indicator read unsigned is the
    indicator widened to 32 bits and read signed. -/
theorem straight_through (b : BitVec 1) (x : EReal) (hx : ∃ r : ℝ, x = (r : EReal)) :
    FloatOps.addf (F := Ideal) (φ := .f32) (FloatOps.subf (F := Ideal) (φ := .f32) (FloatOps.uitofp (F := Ideal) .f32 b) x) x
      = FloatOps.sitofp (F := Ideal) .f32 (b.setWidth 32) := by
  obtain ⟨r, rfl⟩ := hx
  show (((b.toNat : ℝ) : EReal) - (r : EReal)) + (r : EReal) = (((b.setWidth 32).toInt : ℝ) : EReal)
  rw [sub_add_cancel_coe, widened_flag_real]

end Cert.Lib.StraightThrough

end
-- ==== Proof.BridgeProduct.lean ====
/-
  The projected features are the reference's matrix product.

  At entry (n, o) both are the sum over the 256 contracted positions k of a left factor times a right factor.  The left
  factors agree because the norm vector laid out by two broadcasts and the same vector reshaped to a column both read
  norm(n).  The right factors agree because, the mask entry being a real number,  (hard − m) + m = hard.
  Each step is stated for arbitrary arrays with the entries it needs as hypotheses, and instantiated at the end.
-/
import proofs.«105192_j89515708383727_2_alg».proof.Proof.KernelTerms
import proofs.«105192_j89515708383727_2_alg».proof.Proof.BridgeLayout
import proofs.«105192_j89515708383727_2_alg».proof.Proof.Gen.ReferenceIdeal.Read
import proofs.«105192_j89515708383727_2_alg».proof.Proof.LibStraightThrough
import proofs.«105192_j89515708383727_2_alg».proof.Proof.LibRowColumn
import proofs.«105192_j89515708383727_2_alg».proof.Proof.LibColumnLayout
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- A host product of  feat · L  with  Rm , where L reads a norm column and Rm reads indicator · weight, is the projected
    array. -/
theorem product_of_entries (feat L : FVec Ideal S100000x256 .f32) (Rm : FVec Ideal S256x128 .f32)
    (norm : Cert.KernelIdeal.S100000x1.Idx → Elt Ideal .f32) (weight mask : FVec Ideal S256x128 .f32)
    (hL : ∀ (n : Fin 100000) (k : Fin 256), L (ix2 n k) = norm (ix2 n (0 : Fin 1)))
    (hR : ∀ (k : Fin 256) (o : Fin 128), Rm (ix2 k o) = Cert.KernelIdeal.Project.indicator (mask (ix2 k o)) * weight (ix2 k o)) :
    Host.dotGeneral dot_S100000x256_S256x128_S100000x128_1_0_0_1_n_n none (mulf (F := Ideal) feat L) Rm
      = Cert.KernelIdeal.Project.projected feat norm weight mask := by
  funext i
  obtain ⟨n, o, rfl⟩ : ∃ (n : Fin 100000) (o : Fin 128), i = ix2 n o := ⟨i 0, i 1, eq_ix2 i⟩
  refine (Cert.Lib.RowColumn.dotGeneral_entry (M := 100000) (K := 256) (N := 128) dot_S100000x256_S256x128_S100000x128_1_0_0_1_n_n rfl rfl
    Read.lhs_main_v16_0 Read.lhs_main_v16_1 Read.rhs_main_v16_0 Read.rhs_main_v16_1 none .single _ _ (ix2 n o)).trans ?_
  unfold Cert.KernelIdeal.Project.projected
  refine Finset.sum_congr rfl fun k _ => ?_
  show (feat (ix2 n k) * L (ix2 n k) : EReal) * Rm (ix2 k o) = _
  rw [hL, hR]

/-- For any array of comparison bits: the straight-through combination with a real mask entry, times the weight, is the
    bit widened and read signed, times the weight. -/
theorem weight_entry_of (B : IVec S256x128 1) (weight mask : FVec Ideal S256x128 .f32)
    (hM : ∀ i, ∃ r : ℝ, mask i = (r : EReal)) (k : Fin 256) (o : Fin 128) :
    mulf (F := Ideal) (addf (subf (uitofp .f32 B) mask) mask) weight (ix2 k o)
      = FloatOps.sitofp (F := Ideal) .f32 ((B (ix2 k o)).setWidth 32) * weight (ix2 k o) := by
  have e := Cert.Lib.StraightThrough.straight_through (B (ix2 k o)) (mask (ix2 k o)) (hM _)
  show (FloatOps.addf (F := Ideal) (φ := .f32) (FloatOps.subf (F := Ideal) (φ := .f32) (FloatOps.uitofp (F := Ideal) .f32 (B (ix2 k o))) (mask (ix2 k o))) (mask (ix2 k o)) : EReal)
      * weight (ix2 k o) = _
  rw [e]

/-- The reference's comparison against the broadcast one half, at an entry, is the comparison of that entry. -/
theorem flag_entry (mask : FVec Ideal S256x128 .f32) (k : Fin 256) (o : Fin 128) :
    cmpf (F := Ideal) .ogt mask (broadcastInDim S256x128 ![] bcast_S_S256x128 (constant (F := Ideal) S_ .f32 0x3F000000#32)) (ix2 k o)
      = FloatOps.cmpf (F := Ideal) (φ := .f32) .ogt (mask (ix2 k o)) (FloatOps.ofBits (F := Ideal) .f32 0x3F000000#32) := rfl

/-- The reference's weight matrix entry: the straight-through mask times the weight is the indicator times the weight. -/
theorem weight_entry (weight mask : FVec Ideal S256x128 .f32) (hM : ∀ i, ∃ r : ℝ, mask i = (r : EReal)) (k : Fin 256) (o : Fin 128) :
    mulf (F := Ideal) (addf (subf (uitofp .f32 (cmpf (F := Ideal) .ogt mask (broadcastInDim S256x128 ![] bcast_S_S256x128 (constant (F := Ideal) S_ .f32 0x3F000000#32)))) mask) mask) weight (ix2 k o)
      = Cert.KernelIdeal.Project.indicator (mask (ix2 k o)) * weight (ix2 k o) := by
  refine (weight_entry_of (cmpf (F := Ideal) .ogt mask (broadcastInDim S256x128 ![] bcast_S_S256x128 (constant (F := Ideal) S_ .f32 0x3F000000#32))) weight mask hM k o).trans ?_
  rw [flag_entry]
  rfl

/-- The projected features are the reference's product of the normalized features with its masked weights, for any
    norm vector D: laid out by two broadcasts on the reference's side, reshaped to a column on the kernel's. -/
theorem projected_eq (feat : FVec Ideal S100000x256 .f32) (D : FVec Ideal S100000 .f32) (weight mask : FVec Ideal S256x128 .f32)
    (hM : ∀ i, ∃ r : ℝ, mask i = (r : EReal)) :
    Host.dotGeneral dot_S100000x256_S256x128_S100000x128_1_0_0_1_n_n none
        (mulf (F := Ideal) feat (broadcastInDim S100000x256 ![0, 1] bcast_S100000x1_S100000x256_0_1 (broadcastInDim S100000x1 ![0] bcast_S100000_S100000x1_0 D)))
        (mulf (F := Ideal) (addf (subf (uitofp .f32 (cmpf (F := Ideal) .ogt mask (broadcastInDim S256x128 ![] bcast_S_S256x128 (constant (F := Ideal) S_ .f32 0x3F000000#32)))) mask) mask) weight)
      = Cert.KernelIdeal.Project.projected feat
          (shapeCast Cert.KernelIdeal.S100000x1 D Cert.KernelIdeal.Gen.shapeCasts_S100000_S100000x1) weight mask :=
  product_of_entries feat _ _ _ weight mask
    (fun n k => (Cert.Bridge.Layout.vector_as_columns D _ _ n k).trans
      (Cert.Lib.ColumnLayout.shapeCast_a_a1_apply D _ n 0).symm)
    (fun k o => weight_entry weight mask hM k o)

end Cert.ReferenceIdeal.RefValue

end
-- ==== Proof.Bridge.lean ====
/-
  The reference's result and the kernel's value are one function of the arguments.

  Both programs count the degrees, clamp, take the power −1/2, gather along the edges, scale by the edge weights,
  scatter-add into the destination rows, scale by the in-degree norm and add the bias — with the same host operations
  in the same order.  They differ in three places only:

    · the reference multiplies the features by the out-degree norm laid out by two broadcasts, the kernel by the same
      vector reshaped to a column and broadcast inside the block: the same entry, norm(n);
    · the reference's matrix product is one host dot_general over all 100000 rows, the kernel's is 25 block products:
      both are the row-by-column sum at every entry;
    · the reference weights by the straight-through mask  (hard − m) + m , the kernel by  hard :  equal because every
      mask entry is a real number (the precondition).

  The last layout step (norm column and bias row against two broadcasts) is the same reading again.
-/
import proofs.«105192_j89515708383727_2_alg».proof.Proof.KernelTerms
import proofs.«105192_j89515708383727_2_alg».proof.Proof.ReferenceTerms
import proofs.«105192_j89515708383727_2_alg».proof.Proof.BridgeLayout
import proofs.«105192_j89515708383727_2_alg».proof.Proof.BridgeProduct
import proofs.«105192_j89515708383727_2_alg».proof.Proof.LibColumnLayout
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- An array  raw · N + Bc , where N reads a norm column and Bc reads a bias row, is the finalized array. -/
theorem finalized_of_entries (raw N Bc : FVec Ideal S100000x128 .f32)
    (norm : Cert.KernelIdeal.S100000x1.Idx → Elt Ideal .f32) (brow : Cert.KernelIdeal.S1x128.Idx → Elt Ideal .f32)
    (hN : ∀ (n : Fin 100000) (o : Fin 128), N (ix2 n o) = norm (ix2 n (0 : Fin 1)))
    (hB : ∀ (n : Fin 100000) (o : Fin 128), Bc (ix2 n o) = brow (ix2 (0 : Fin 1) o)) :
    addf (F := Ideal) (mulf (F := Ideal) raw N) Bc = Cert.KernelIdeal.Finalize.finalized raw norm brow := by
  funext i
  obtain ⟨n, o, rfl⟩ : ∃ (n : Fin 100000) (o : Fin 128), i = ix2 n o := ⟨i 0, i 1, eq_ix2 i⟩
  show (raw (ix2 n o) * N (ix2 n o) + Bc (ix2 n o) : EReal) = raw (ix2 n o) * norm (ix2 n (0 : Fin 1)) + brow (ix2 (0 : Fin 1) o)
  rw [hN, hB]

/-- The reference's last two operations are the finalized array, for any norm vector D and bias: laid out by broadcasts
    on the reference's side, reshaped to a column and to a row on the kernel's. -/
theorem finalized_eq (raw : FVec Ideal S100000x128 .f32) (D : FVec Ideal S100000 .f32) (bias : FVec Ideal S128 .f32) :
    addf (F := Ideal) (mulf (F := Ideal) raw (broadcastInDim S100000x128 ![0, 1] bcast_S100000x1_S100000x128_0_1 (broadcastInDim S100000x1 ![0] bcast_S100000_S100000x1_0 D)))
        (broadcastInDim S100000x128 ![0, 1] bcast_S1x128_S100000x128_0_1 (broadcastInDim S1x128 ![1] bcast_S128_S1x128_1 bias))
      = Cert.KernelIdeal.Finalize.finalized raw
          (shapeCast Cert.KernelIdeal.S100000x1 D Cert.KernelIdeal.Gen.shapeCasts_S100000_S100000x1)
          (shapeCast Cert.KernelIdeal.S1x128 bias Cert.KernelIdeal.Gen.shapeCasts_S128_S1x128) :=
  finalized_of_entries raw _ _ _ _
    (fun n o => (Cert.Bridge.Layout.vector_as_columns D _ _ n o).trans
      (Cert.Lib.ColumnLayout.shapeCast_a_a1_apply D _ n 0).symm)
    (fun n o => (Cert.Bridge.Layout.vector_as_rows bias _ _ n o).trans
      (Cert.Bridge.Layout.reshaped_row bias _ 0 o).symm)

/-- THE BRIDGE: for a mask of real entries the reference's result term is the kernel's value. -/
theorem value_eq (feat : FVec Ideal S100000x256 .f32) (src dst : IVec S1600000 32) (ew : FVec Ideal S1600000 .f32)
    (weight : FVec Ideal S256x128 .f32) (bias : FVec Ideal S128 .f32) (mask : FVec Ideal S256x128 .f32)
    (hM : ∀ i, ∃ r : ℝ, mask i = (r : EReal)) :
    value feat src dst ew weight bias mask = Cert.KernelIdeal.KValue.value feat src dst ew weight bias mask := by
  unfold value Cert.KernelIdeal.KValue.value Cert.KernelIdeal.KValue.normColumn
  rw [degreeNorm_eq src, degreeNorm_eq dst, projected_eq feat (Cert.KernelIdeal.KValue.degreeNorm src) weight mask hM, aggregated_eq,
    finalized_eq]

end Cert.ReferenceIdeal.RefValue

end
-- ==== Proof.MaskFinite.lean ====
/-
  From the precondition to "every mask entry is a real number".

  The precondition is a conjunction, over the five float inputs, of  all(|x| < +∞).  Its last conjunct speaks of the
  mask.  A one-bit "and" that is 1 has both operands 1; an "and"-reduction over a whole array that is 1 has every element
  1; and an extended real whose absolute value is below +∞ is neither +∞ nor −∞, hence a real.
-/
import proofs.«105192_j89515708383727_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.MaskFinite

open Cert.Pre_finite_inputs Idealize.ShloMosaic

instance : Subsingleton S_.Idx := ⟨fun a b => funext fun d => d.elim0⟩

/-- An extended real whose absolute value compares below the word of +∞ is a real number. -/
theorem real_of_abs_lt_top (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exfalso; revert h; simp [Ideal.cmp]
  | coe r => exact ⟨r, rfl⟩
  | top => exfalso; revert h; simp [Ideal.cmp]

variable [Facts]

/-- Under the precondition every entry of the mask (the seventh argument) is a real number. -/
theorem mask_real (a0 : FVec Ideal S100000x256 .f32) (a1 a2 : IVec S1600000 32) (a3 : FVec Ideal S1600000 .f32)
    (a4 : FVec Ideal S256x128 .f32) (a5 : FVec Ideal S128 .f32) (a6 : FVec Ideal S256x128 .f32)
    (h : fn (F := Ideal) a0 a1 a2 a3 a4 a5 a6 = fun _ => 1#1) (i : S256x128.Idx) :
    ∃ r : ℝ, a6 i = (r : EReal) := by
  have h0 := congrFun h ValueIdx.ix0
  dsimp only [fn, fn_part1] at h0
  have h1 := (IntOp.andi_eq_one.mp h0).2
  exact real_of_abs_lt_top (a6 i) (Host.reduce_andi_all _ _ _ _ _ h1 i)

end Cert.Pre_finite_inputs.MaskFinite

end
-- ==== Proof.ReferenceValue.lean ====
/-
  The reference read back: its @main is 57 host operations in a straight line, so its run ends with the result at the
  operations' composed term of the arguments (the generated run), and that term can be read one operation at a time at
  an index (the generated readings) — in particular its one matrix product as a sum over the 256 contracted positions,
  whose four operand-index facts the bridge uses.
-/
import proofs.«105192_j89515708383727_2_alg».proof.Proof.Gen.ReferenceIdeal.Run
import proofs.«105192_j89515708383727_2_alg».proof.Proof.Gen.ReferenceIdeal.Read
-- ==== Proof.lean ====
/-
  A masked graph convolution: kernel against reference, on the extended reals.

  For N = 100000 nodes with 256 input features, E = 1600000 edges (src, dst, weight ew), a 256 × 128 weight matrix W, a
  256 × 128 real-valued mask M and a bias b, both programs compute, at node n and output feature o,

      out(n, o) = d_in(n) · Σ_{e : dst(e) = n}  ew(e) · P(src(e), o)  +  b(o),
      P(n, o)   = Σ_k (feat(n, k) · d_out(n)) · (𝟙[M(k, o) > 1/2] · W(k, o)),
      d_out(n)  = max(1, #{e : src(e) = n})^(−1/2),     d_in(n) = max(1, #{e : dst(e) = n})^(−1/2).

  The kernel computes P in one blocked region (25 blocks of 4000 rows, a matrix product per block) and the last line in
  another (25 blocks again), with the degree counts, the gather and the scatter-add as host operations around them.  The
  reference is host operations only, and writes the mask factor as  (𝟙[M > 1/2] − M) + M.

  The three frames: the two kernels' are generated; the reference's is its generated run with the result dropped.
  The idealized kernel is the kernel's own text read on the extended reals (no rewrite to account for).
  The algebraic claim: the kernel's run ends with its result at one function of the arguments (KernelValue.lean, over
  ProjectRegion.lean and FinalizeRegion.lean for the two regions and KernelRun.lean for the run), the reference's run at
  its composed term, and the two agree (Bridge.lean) because every mask entry is a real number (MaskFinite.lean, from the
  precondition), so that  (𝟙 − M) + M = 𝟙.
-/
import proofs.«105192_j89515708383727_2_alg».proof.Defs
import proofs.«105192_j89515708383727_2_alg».proof.Proof.Gen.Kernel
import proofs.«105192_j89515708383727_2_alg».proof.Proof.Gen.Kernel.Skeleton
import proofs.«105192_j89515708383727_2_alg».proof.Proof.Gen.Kernel.Launch
import proofs.«105192_j89515708383727_2_alg».proof.Proof.Gen.Kernel.Points
import proofs.«105192_j89515708383727_2_alg».proof.Proof.Gen.Kernel.Frame
import proofs.«105192_j89515708383727_2_alg».proof.Proof.Gen.KernelIdeal
import proofs.«105192_j89515708383727_2_alg».proof.Proof.Gen.KernelIdeal.Skeleton
import proofs.«105192_j89515708383727_2_alg».proof.Proof.Gen.KernelIdeal.Launch
import proofs.«105192_j89515708383727_2_alg».proof.Proof.Gen.KernelIdeal.Points
import proofs.«105192_j89515708383727_2_alg».proof.Proof.Gen.KernelIdeal.Frame
import proofs.«105192_j89515708383727_2_alg».proof.Proof.Gen.ReferenceIdeal
import proofs.«105192_j89515708383727_2_alg».proof.Proof.Gen.ReferenceIdeal.Run
import proofs.«105192_j89515708383727_2_alg».proof.Proof.Gen.Pre_finite_inputs
import proofs.«105192_j89515708383727_2_alg».proof.Proof.KernelValue
import proofs.«105192_j89515708383727_2_alg».proof.Proof.Bridge
import proofs.«105192_j89515708383727_2_alg».proof.Proof.MaskFinite
import proofs.«105192_j89515708383727_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both runs end, the kernel's with its result at its value of the arguments,
    the reference's at its composed term of the same arguments; the mask's entries are real under the precondition, and
    then the two are one function. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.value_eq _ _ _ _ _ _ _
    (fun i => Cert.Pre_finite_inputs.MaskFinite.mask_real _ _ _ _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
